-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x320 : S_.BroadcastsInDim S128x320 (![] : Fin 0 → Fin S128x320.rank)
  reducesTo_S128x320_S_d0_1 : S128x320.ReducesTo [0, 1] S_
  bcast_S_S320 : S_.BroadcastsInDim S320 (![] : Fin 0 → Fin S320.rank)
  reducesTo_S320_S_d0 : S320.ReducesTo [0] S_
  bcast_S_S320x128 : S_.BroadcastsInDim S320x128 (![] : Fin 0 → Fin S320x128.rank)
  reducesTo_S320x128_S_d0_1 : S320x128.ReducesTo [0, 1] S_

variable [Facts]

def fn_part1 {F : FTy → Type} [FloatOps F] (main_arg4 : FVec F S320 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S1024x128 .f32) (main_arg1 : FVec F S128x320 .f32) (main_arg2 : FVec F S320 .f32) (main_arg3 : FVec F S320x128 .f32) (main_arg4 : FVec F S320 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x320 .f32 := Host.absf main_arg1
  let main_cst_0 : FVec F S_ .f32 := constant S_ .f32 0x7F800000#32
  let main_v5 : FVec F S128x320 .f32 := broadcastInDim S128x320 ![] bcast_S_S128x320 main_cst_0
  let main_v6 : IVec S128x320 1 := cmpf .olt main_v4 main_v5
  let main_c_1 : IVec S_ 1 := constantI S_ 1 1#1
  let main_v7 : IVec S_ 1 := (fun x v => Host.reduce IntOp.andi x v reducesTo_S128x320_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S320x128 .f32 := Host.absf main_arg3
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg4 main_v13 main_v16
-- ==== Kernel.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S320x1 : Shape := ⟨2, ![320, 1]⟩
abbrev S1x320 : Shape := ⟨2, ![1, 320]⟩
abbrev S1024x320x320 : Shape := ⟨3, ![1024, 320, 320]⟩
abbrev S8x128 : Shape := ⟨2, ![8, 128]⟩
abbrev S8x1 : Shape := ⟨2, ![8, 1]⟩
abbrev S1024x8x320 : Shape := ⟨3, ![1024, 8, 320]⟩
abbrev S1024x8 : Shape := ⟨2, ![1024, 8]⟩
abbrev S8 : Shape := ⟨1, ![8]⟩
abbrev S1x8 : Shape := ⟨2, ![1, 8]⟩
abbrev S1024x320 : Shape := ⟨2, ![1024, 320]⟩
abbrev S1024x1 : Shape := ⟨2, ![1024, 1]⟩
abbrev S1024x1x320 : Shape := ⟨3, ![1024, 1, 320]⟩
abbrev S1024x102400 : Shape := ⟨2, ![1024, 102400]⟩

abbrev nBuf : Space → Nat
  | .hbm => 10
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S128x320, .f32⟩
  | .hbm, ⟨2, _⟩ => ⟨S320, .f32⟩
  | .hbm, ⟨3, _⟩ => ⟨S320x128, .f32⟩
  | .hbm, ⟨4, _⟩ => ⟨S320, .f32⟩
  | .hbm, ⟨5, _⟩ => ⟨S320x128, .f32⟩
  | .hbm, ⟨6, _⟩ => ⟨S320x1, .f32⟩
  | .hbm, ⟨7, _⟩ => ⟨S1x320, .f32⟩
  | .hbm, ⟨8, _⟩ => ⟨S1024x320x320, .f32⟩
  | .hbm, ⟨9, _⟩ => ⟨S1024x102400, .f32⟩
  | .local _ .vmem, ⟨0, _⟩ => ⟨S1024x128, .f32⟩
  | .local _ .vmem, ⟨1, _⟩ => ⟨S8x128, .f32⟩
  | .local _ .vmem, ⟨2, _⟩ => ⟨S8x128, .f32⟩
  | .local _ .vmem, ⟨3, _⟩ => ⟨S8x1, .f32⟩
  | .local _ .vmem, ⟨4, _⟩ => ⟨S8x1, .f32⟩
  | .local _ .vmem, ⟨5, _⟩ => ⟨S320x128, .f32⟩
  | .local _ .vmem, ⟨6, _⟩ => ⟨S1x320, .f32⟩
  | .local _ .vmem, ⟨7, _⟩ => ⟨S1024x8x320, .f32⟩
  | .local _ .vmem, ⟨8, _⟩ => ⟨S1024x8x320, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x8x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x320_S320x128_1_0 : S128x320.Transposes [1, 0] S320x128
  shapeCasts_S320_S320x1 : S320.ShapeCasts S320x1
  shapeCasts_S320_S1x320 : S320.ShapeCasts S1x320
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8 : S8x1.ShapeCasts S8
  shapeCasts_S8_S1x8 : S8.ShapeCasts S1x8
  broadcasts_S1x8_S1024x8 : S1x8.Broadcasts S1024x8
  inb_S320x128_S320x128_0_0 : ∀ a, (![0, 0] : Fin 2 → Nat) a + S320x128.size a ≤ S320x128.size a
  h_S320x128 : 0 < S320x128.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S1024x320 : S1x320.Broadcasts S1024x320
  slices_S1024x8_o0_0_S1024x1 : S1024x8.Slices ![0, 0] S1024x1
  broadcasts_S1024x1_S1024x320 : S1024x1.Broadcasts S1024x320
  inb_S1024x8x320_S1024x1x320_0_0_0 : ∀ a, (![0, 0, 0] : Fin 3 → Nat) a + S1024x1x320.size a ≤ S1024x8x320.size a
  h_S1024x1x320 : 0 < S1024x1x320.numel
  shapeCasts_S1024x1x320_S1024x320 : S1024x1x320.ShapeCasts S1024x320
  shapeCasts_S1024x320_S1024x1x320 : S1024x320.ShapeCasts S1024x1x320
  slices_S1024x8_o0_1_S1024x1 : S1024x8.Slices ![0, 1] S1024x1
  inb_S1024x8x320_S1024x1x320_0_1_0 : ∀ a, (![0, 1, 0] : Fin 3 → Nat) a + S1024x1x320.size a ≤ S1024x8x320.size a
  slices_S1024x8_o0_2_S1024x1 : S1024x8.Slices ![0, 2] S1024x1
  inb_S1024x8x320_S1024x1x320_0_2_0 : ∀ a, (![0, 2, 0] : Fin 3 → Nat) a + S1024x1x320.size a ≤ S1024x8x320.size a
  slices_S1024x8_o0_3_S1024x1 : S1024x8.Slices ![0, 3] S1024x1
  inb_S1024x8x320_S1024x1x320_0_3_0 : ∀ a, (![0, 3, 0] : Fin 3 → Nat) a + S1024x1x320.size a ≤ S1024x8x320.size a
  slices_S1024x8_o0_4_S1024x1 : S1024x8.Slices ![0, 4] S1024x1
  inb_S1024x8x320_S1024x1x320_0_4_0 : ∀ a, (![0, 4, 0] : Fin 3 → Nat) a + S1024x1x320.size a ≤ S1024x8x320.size a
  slices_S1024x8_o0_5_S1024x1 : S1024x8.Slices ![0, 5] S1024x1
  inb_S1024x8x320_S1024x1x320_0_5_0 : ∀ a, (![0, 5, 0] : Fin 3 → Nat) a + S1024x1x320.size a ≤ S1024x8x320.size a
  slices_S1024x8_o0_6_S1024x1 : S1024x8.Slices ![0, 6] S1024x1
  inb_S1024x8x320_S1024x1x320_0_6_0 : ∀ a, (![0, 6, 0] : Fin 3 → Nat) a + S1024x1x320.size a ≤ S1024x8x320.size a
  slices_S1024x8_o0_7_S1024x1 : S1024x8.Slices ![0, 7] S1024x1
  inb_S1024x8x320_S1024x1x320_0_7_0 : ∀ a, (![0, 7, 0] : Fin 3 → Nat) a + S1024x1x320.size a ≤ S1024x8x320.size a
  shapeCasts_S1024x320x320_S1024x102400 : S1024x320x320.ShapeCasts S1024x102400
  dot_S1024x128_S8x128_S1024x8_1_1_0_0_n_n_wf : DotDims.WF S1024x128 S8x128 S1024x8 [1] [1] [0] [0] [] []
  dot_S1024x128_S320x128_S1024x320_1_1_0_0_n_n_wf : DotDims.WF S1024x128 S320x128 S1024x320 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S320x128.size a
  hwx0_1 : ∀ i : grid0.Coords, EltTy.bits .f32 = 32 ∨ (Rect.block (s := S320x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S320x1.size a
  hwx0_2 : ∀ i : grid0.Coords, EltTy.bits .f32 = 32 ∨ (Rect.block (s := S320x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .f32 = 32 ∨ (Rect.block (s := S320x128) S320x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8x320.size a ≤ S1024x320x320.size a
  hwx0_5 : ∀ i : grid0.Coords, EltTy.bits .f32 = 32 ∨ (Rect.block (s := S1024x320x320) S1024x8x320.size (cc0_transform_5 i) (hinb0_5 i)).WholeWords (EltTy.packing .f32)

variable [Facts₀]

def dot_S1024x128_S8x128_S1024x8_1_1_0_0_n_n : DotDims S1024x128 S8x128 S1024x8 where
  lhsContracting := [1]
  rhsContracting := [1]
  lhsNonContracting := [0]
  rhsNonContracting := [0]
  lhsBatch := []
  rhsBatch := []
  wf := dot_S1024x128_S8x128_S1024x8_1_1_0_0_n_n_wf
def dot_S1024x128_S320x128_S1024x320_1_1_0_0_n_n : DotDims S1024x128 S320x128 S1024x320 where
  lhsContracting := [1]
  rhsContracting := [1]
  lhsNonContracting := [0]
  rhsNonContracting := [0]
  lhsBatch := []
  rhsBatch := []
  wf := dot_S1024x128_S320x128_S1024x320_1_1_0_0_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x8x320.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S1024x320 : Shape := ⟨2, ![1024, 320]⟩
abbrev S1x320 : Shape := ⟨2, ![1, 320]⟩
abbrev S_ : Shape := ⟨0, ![]⟩
abbrev S320x1 : Shape := ⟨2, ![320, 1]⟩
abbrev S1024x320x1 : Shape := ⟨3, ![1024, 320, 1]⟩
abbrev S1024x1x320 : Shape := ⟨3, ![1024, 1, 320]⟩
abbrev S1024x320x320 : Shape := ⟨3, ![1024, 320, 320]⟩
abbrev S1024x102400 : Shape := ⟨2, ![1024, 102400]⟩

abbrev nBuf : Space → Nat
  | .hbm => 30
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x320, .f32⟩
  | .hbm, ⟨2, _⟩ => ⟨S320, .f32⟩
  | .hbm, ⟨3, _⟩ => ⟨S320x128, .f32⟩
  | .hbm, ⟨4, _⟩ => ⟨S320, .f32⟩
  | .hbm, ⟨5, _⟩ => ⟨S320, .i32⟩
  | .hbm, ⟨6, _⟩ => ⟨S1024x320, .f32⟩
  | .hbm, ⟨7, _⟩ => ⟨S1x320, .f32⟩
  | .hbm, ⟨8, _⟩ => ⟨S1024x320, .f32⟩
  | .hbm, ⟨9, _⟩ => ⟨S1024x320, .f32⟩
  | .hbm, ⟨10, _⟩ => ⟨S128x320, .f32⟩
  | .hbm, ⟨11, _⟩ => ⟨S1024x320, .f32⟩
  | .hbm, ⟨12, _⟩ => ⟨S_, .i32⟩
  | .hbm, ⟨13, _⟩ => ⟨S320, .i32⟩
  | .hbm, ⟨14, _⟩ => ⟨S320, .i1⟩
  | .hbm, ⟨15, _⟩ => ⟨S_, .i32⟩
  | .hbm, ⟨16, _⟩ => ⟨S320, .i32⟩
  | .hbm, ⟨17, _⟩ => ⟨S320, .i32⟩
  | .hbm, ⟨18, _⟩ => ⟨S320, .i32⟩
  | .hbm, ⟨19, _⟩ => ⟨S320x1, .i32⟩
  | .hbm, ⟨20, _⟩ => ⟨S320, .f32⟩
  | .hbm, ⟨21, _⟩ => ⟨S1x320, .f32⟩
  | .hbm, ⟨22, _⟩ => ⟨S1024x320, .f32⟩
  | .hbm, ⟨23, _⟩ => ⟨S1024x320, .f32⟩
  | .hbm, ⟨24, _⟩ => ⟨S1024x320x1, .f32⟩
  | .hbm, ⟨25, _⟩ => ⟨S1024x1x320, .f32⟩
  | .hbm, ⟨26, _⟩ => ⟨S1024x320x320, .f32⟩
  | .hbm, ⟨27, _⟩ => ⟨S1024x320x320, .f32⟩
  | .hbm, ⟨28, _⟩ => ⟨S1024x320x320, .f32⟩
  | .hbm, ⟨29, _⟩ => ⟨S1024x102400, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S320_S1x320_1 : S320.BroadcastsInDim S1x320 (![1] : Fin 1 → Fin S1x320.rank)
  bcast_S1x320_S1024x320_0_1 : S1x320.BroadcastsInDim S1024x320 (![0, 1] : Fin 2 → Fin S1024x320.rank)
  transposes_S320x128_S128x320_1_0 : S320x128.Transposes [1, 0] S128x320
  bcast_S_S320 : S_.BroadcastsInDim S320 (![] : Fin 0 → Fin S320.rank)
  bcast_S320_S320x1_0 : S320.BroadcastsInDim S320x1 (![0] : Fin 1 → Fin S320x1.rank)
  bcast_S1024x320_S1024x320x1_0_1 : S1024x320.BroadcastsInDim S1024x320x1 (![0, 1] : Fin 2 → Fin S1024x320x1.rank)
  bcast_S1024x320_S1024x1x320_0_2 : S1024x320.BroadcastsInDim S1024x1x320 (![0, 2] : Fin 2 → Fin S1024x1x320.rank)
  bcast_S1024x320x1_S1024x320x320_0_1_2 : S1024x320x1.BroadcastsInDim S1024x320x320 (![0, 1, 2] : Fin 3 → Fin S1024x320x320.rank)
  bcast_S1024x1x320_S1024x320x320_0_1_2 : S1024x1x320.BroadcastsInDim S1024x320x320 (![0, 1, 2] : Fin 3 → Fin S1024x320x320.rank)
  shapeCasts_S1024x320x320_S1024x102400 : S1024x320x320.ShapeCasts S1024x102400
  dot_S1024x128_S128x320_S1024x320_1_0_0_1_n_n_wf : DotDims.WF S1024x128 S128x320 S1024x320 [1] [0] [0] [1] [] []
  gather_S320_S320x1_S320_n_0_n_n_0_1_1_wf : GatherDims.WF S320 S320x1 S320 [] [0] [] [0] [] 1 ![1]

variable [Facts₀]

def dot_S1024x128_S128x320_S1024x320_1_0_0_1_n_n : DotDims S1024x128 S128x320 S1024x320 where
  lhsContracting := [1]
  rhsContracting := [0]
  lhsNonContracting := [0]
  rhsNonContracting := [1]
  lhsBatch := []
  rhsBatch := []
  wf := dot_S1024x128_S128x320_S1024x320_1_0_0_1_n_n_wf
def gather_S320_S320x1_S320_n_0_n_n_0_1_1 : GatherDims S320 S320x1 S320 where
  offsetDims := []
  collapsedSliceDims := [0]
  operandBatchingDims := []
  startIndicesBatchingDims := []
  startIndexMap := [0]
  indexVectorDim := 1
  sliceSizes := ![1]
  wf := gather_S320_S320x1_S320_n_0_n_n_0_1_1_wf

class Facts : Prop extends Facts₀ where

variable [Facts]
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.StepBlock.lean ====
/-
  What one grid step leaves in its output block.

  A step holds eight consecutive classes. From the whole activations, the step's eight rows of the transposed class
  weights and their eight biases it forms the eight class logits of every batch row (rows against rows: entry (p, g) is
  `Σ_h x[p,h] · w[g,h]`, plus the bias of class g, the bias column spread along the batch axis); from the whole token weights
  and the token bias row it forms every token logit `Σ_h x[p,h] · u[k,h] + d[k]`. Rounding the operands to a shorter
  format changes nothing on the extended reals. It then writes eight slabs, one per class g: the class-g column
  spread along the position axis, plus the token logits, placed at class row g of the block. The eight slabs tile the
  block, and each is the restriction of ONE function of the block index — entry (p, g, k) is the class logit of
  (p, g) plus the token logit of (p, k) — so the block is that function.
-/
import proofs.«152181_j18133351924188_2_alg».proof.Proof.Gen.KernelIdeal.Frame
import proofs.«152181_j18133351924188_2_alg».proof.Proof.LibDotTransposedRhs
import Idealize.ShloMosaic.Lib.Pipeline.Value
import Idealize.ShloMosaic.Lib.ValueIdx
import Idealize.ShloMosaic.PureOps.Ideal.Laws

set_option maxRecDepth 16384

noncomputable section

namespace Cert.Logits.Step

open Idealize.ShloMosaic Idealize.ShloMosaic.ValueIdx
open Cert.KernelIdeal Cert.KernelIdeal.Gen

/-- The step's eight class logits of batch row `p`: the row of `x` against row `g` of the step's weight rows,
    plus the bias of class `g`. -/
theorem class_logits (x0 : Vec Ideal S1024x128 .f32) (x1 : Vec Ideal S8x128 .f32) (x2 : Vec Ideal S8x1 .f32)
    (p : Fin 1024) (g : Fin 8) :
    k0_pay8 (F := Ideal) x0 x1 x2 (ix2 p g) = (∑ h : Fin 128, x0 (ix2 p h) * x1 (ix2 g h)) + x2 (ix2 g 0) := by
  unfold k0_pay8 k0_pay7
  show matmul (F := Ideal) dot_S1024x128_S8x128_S1024x8_1_1_0_0_n_n none (truncf .bf16 x0 bitsLt_bf16_f32)
        (truncf .bf16 (shapeCast S8x128 x1 shapeCasts_S8x128_S8x128) bitsLt_bf16_f32) (constant S1024x8 .f32 0x00000000#32) (ix2 p g)
      + broadcastTo S1024x8 (shapeCast S1x8 (shapeCast S8 (shapeCast S8x1 x2 shapeCasts_S8x1_S8x1) shapeCasts_S8x1_S8) shapeCasts_S8_S1x8)
          broadcasts_S1x8_S1024x8 (ix2 p g) = _
  refine congrArg₂ (· + ·) ?_ ?_
  · refine (Cert.DotTransposedRhs.matmul_zero_apply dot_S1024x128_S8x128_S1024x8_1_1_0_0_n_n rfl _ _ p g).trans ?_
    refine Finset.sum_congr rfl fun h _ => ?_
    show x0 (ix2 p h) * shapeCast S8x128 x1 shapeCasts_S8x128_S8x128 (ix2 g h) = _
    rw [shapeCast_self]
  · refine (broadcastTo_apply _ broadcasts_S1x8_S1024x8 (ix2 p g) (ix2 0 g) (fun a => match a with
      | ⟨0, _⟩ => by show 0 = if (1 : Nat) = 1 then 0 else p.val; rw [if_pos rfl]
      | ⟨1, _⟩ => by show g.val = if (8 : Nat) = 1 then 0 else g.val; rw [if_neg (by decide)])).trans ?_
    refine (shapeCast_apply _ shapeCasts_S8_S1x8 (ix2 0 g) (ix1 g) (by
      rewrite [Shape.rowMajor_val_one, Shape.rowMajor_val_two]; show g.val = 0 * 8 + g.val; omega)).trans ?_
    refine (shapeCast_apply _ shapeCasts_S8x1_S8 (ix1 g) (ix2 g 0) (by
      rewrite [Shape.rowMajor_val_two, Shape.rowMajor_val_one]; show g.val * 1 + 0 = g.val; omega)).trans ?_
    rw [shapeCast_self]

/-- The token logits of batch row `p`: the row of `x` against row `k` of the token weights, plus the token bias. -/
theorem token_logits (x0 : Vec Ideal S1024x128 .f32) (x3 : Vec Ideal S320x128 .f32) (x4 : Vec Ideal S1x320 .f32)
    (p : Fin 1024) (k : Fin 320) :
    k0_pay9 (F := Ideal) x0 x3 x4 (ix2 p k) = (∑ h : Fin 128, x0 (ix2 p h) * x3 (ix2 k h)) + x4 (ix2 0 k) := by
  unfold k0_pay9 k0_pay7
  show matmul (F := Ideal) dot_S1024x128_S320x128_S1024x320_1_1_0_0_n_n none (truncf .bf16 x0 bitsLt_bf16_f32)
        (truncf .bf16 x3 bitsLt_bf16_f32) (constant S1024x320 .f32 0x00000000#32) (ix2 p k)
      + broadcastTo S1024x320 (shapeCast S1x320 x4 shapeCasts_S1x320_S1x320) broadcasts_S1x320_S1024x320 (ix2 p k) = _
  refine congrArg₂ (· + ·) ?_ ?_
  · exact Cert.DotTransposedRhs.matmul_zero_apply dot_S1024x128_S320x128_S1024x320_1_1_0_0_n_n rfl _ _ p k
  · refine (broadcastTo_apply _ broadcasts_S1x320_S1024x320 (ix2 p k) (ix2 0 k) (fun a => match a with
      | ⟨0, _⟩ => by show 0 = if (1 : Nat) = 1 then 0 else p.val; rw [if_pos rfl]
      | ⟨1, _⟩ => by show k.val = if (320 : Nat) = 1 then 0 else k.val; rw [if_neg (by decide)])).trans ?_
    rw [shapeCast_self]

/-- The function the eight slabs restrict: class value of (p, g) plus token value of (p, k). -/
def tile (v11 : FVec Ideal S1024x8 .f32) (v18 : FVec Ideal S1024x320 .f32) : S1024x8x320.Idx → EReal :=
  fun y => v11 (ix2 (y 0) (y 1)) + v18 (ix2 (y 0) (y 2))

/-- One slab — column `g` of the class values spread along the position axis, plus the token values — read at a
    local index is `tile` at the block index the slab's rectangle gives it: class row `g`, same batch row and position. -/
theorem slab_eq_tile (g : Nat) (hg : g < 8) (hs : S1024x8.Slices ![0, g] S1024x1)
    (inb : ∀ a, (![0, g, 0] : Fin 3 → Nat) a + S1024x1x320.size a ≤ S1024x8x320.size a)
    (v11 : FVec Ideal S1024x8 .f32) (v18 : FVec Ideal S1024x320 .f32) (x : S1024x1x320.Idx) :
    shapeCast S1024x1x320 (addf (broadcastTo S1024x320 (extractStridedSlice S1024x1 ![0, g] v11 hs) broadcasts_S1024x1_S1024x320) v18)
        shapeCasts_S1024x320_S1024x1x320 x
      = tile v11 v18 ((Rect.unit (s := S1024x8x320) ![0, g, 0] S1024x1x320.size inb).emb x) := by
  have hx1 : (x 1).val = 0 := by have h : (x 1).val < 1 := (x 1).isLt; omega
  refine (shapeCast_apply _ shapeCasts_S1024x320_S1024x1x320 x (ix2 (x 0) (x 2)) (by
    rewrite [Shape.rowMajor_val_two, Shape.rowMajor_val_three]
    show (x 0).val * 320 + (x 2).val = ((x 0).val * 1 + (x 1).val) * 320 + (x 2).val
    rw [hx1]; omega)).trans ?_
  show broadcastTo S1024x320 (extractStridedSlice S1024x1 ![0, g] v11 hs) broadcasts_S1024x1_S1024x320 (ix2 (x 0) (x 2))
      + v18 (ix2 (x 0) (x 2)) = _
  have e0 : (Rect.unit (s := S1024x8x320) ![0, g, 0] S1024x1x320.size inb).emb x 0 = x 0 :=
    Fin.ext (by show 0 + 1 * (x 0).val = (x 0).val; omega)
  have e1 : (Rect.unit (s := S1024x8x320) ![0, g, 0] S1024x1x320.size inb).emb x 1 = ⟨g, hg⟩ :=
    Fin.ext (by show g + 1 * (x 1).val = g; omega)
  have e2 : (Rect.unit (s := S1024x8x320) ![0, g, 0] S1024x1x320.size inb).emb x 2 = x 2 :=
    Fin.ext (by show 0 + 1 * (x 2).val = (x 2).val; omega)
  unfold tile
  rw [e0, e1, e2]
  refine congrArg₂ (· + ·) ?_ rfl
  refine (broadcastTo_apply _ broadcasts_S1024x1_S1024x320 (ix2 (x 0) (x 2)) (ix2 (x 0) 0) (fun a => match a with
    | ⟨0, _⟩ => by show (x 0).val = if (1024 : Nat) = 1 then 0 else (x 0).val; rw [if_neg (by decide)]
    | ⟨1, _⟩ => by show 0 = if (1 : Nat) = 1 then 0 else (x 2).val; rw [if_pos rfl])).trans ?_
  exact extractStridedSlice_apply _ v11 hs (ix2 (x 0) 0) (ix2 (x 0) ⟨g, hg⟩) (fun a => match a with
    | ⟨0, _⟩ => by show (x 0).val = 0 + (x 0).val; omega
    | ⟨1, _⟩ => by show g = g + 0; omega)

theorem zero2 : (![0, 0] : Fin 2 → Nat) = fun _ => 0 := funext fun a => by fin_cases a <;> rfl

/-- THE BLOCK a step leaves: entry (p, g, k) is the step's class value of (p, g) plus the token value of (p, k). -/
theorem block_eq_tile (x0 : Vec Ideal S1024x128 .f32) (x1 : Vec Ideal S8x128 .f32) (x2 : Vec Ideal S8x1 .f32)
    (x3 : Vec Ideal S320x128 .f32) (x4 : Vec Ideal S1x320 .f32) :
    out0_5 (F := Ideal) x0 x1 x2 x3 x4 = tile (k0_pay8 x0 x1 x2) (k0_pay9 x0 x3 x4) := by
  funext y
  unfold out0_5
  simp only [View.ld_unit_zero (S := S1024x128) zero2, View.ld_unit_zero (S := S8x128) zero2, View.ld_unit_zero (S := S8x1) zero2,
    View.ld_unit_zero (S := S320x128) zero2, View.ld_unit_zero (S := S1x320) zero2]
  refine View.canon_apply_of_pieces (Val := Elt Ideal) (tile (k0_pay8 x0 x1 x2) (k0_pay9 x0 x3 x4)) _ (fun q hq => ?_) y (cover0_5 _ _ _ _ _ _ _ _ y)
  simp only [List.mem_cons, List.mem_nil_iff, or_false] at hq
  rcases hq with rfl | rfl | rfl | rfl | rfl | rfl | rfl | rfl
  · intro x; exact slab_eq_tile 7 (by decide) slices_S1024x8_o0_7_S1024x1 inb_S1024x8x320_S1024x1x320_0_7_0 _ _ x
  · intro x; exact slab_eq_tile 6 (by decide) slices_S1024x8_o0_6_S1024x1 inb_S1024x8x320_S1024x1x320_0_6_0 _ _ x
  · intro x; exact slab_eq_tile 5 (by decide) slices_S1024x8_o0_5_S1024x1 inb_S1024x8x320_S1024x1x320_0_5_0 _ _ x
  · intro x; exact slab_eq_tile 4 (by decide) slices_S1024x8_o0_4_S1024x1 inb_S1024x8x320_S1024x1x320_0_4_0 _ _ x
  · intro x; exact slab_eq_tile 3 (by decide) slices_S1024x8_o0_3_S1024x1 inb_S1024x8x320_S1024x1x320_0_3_0 _ _ x
  · intro x; exact slab_eq_tile 2 (by decide) slices_S1024x8_o0_2_S1024x1 inb_S1024x8x320_S1024x1x320_0_2_0 _ _ x
  · intro x; exact slab_eq_tile 1 (by decide) slices_S1024x8_o0_1_S1024x1 inb_S1024x8x320_S1024x1x320_0_1_0 _ _ x
  · intro x; exact slab_eq_tile 0 (by decide) slices_S1024x8_o0_0_S1024x1 inb_S1024x8x320_S1024x1x320_0_0_0 _ _ x

end Cert.Logits.Step

end
-- ==== Proof.Logits.lean ====
/-
  The two-level logit table, as one function of the five argument arrays.

  A batch row `p` of the activations `x` (1024 rows of 128 features) gets a CLASS logit for each of the 320 classes,
  `(Σ_h x[p,h] · W[h,c]) + b[c]`, and a TOKEN logit for each of the 320 positions inside a class,
  `(Σ_h x[p,h] · U[k,h]) + d[k]` (the token weights meet the activations row against row). The table entry for
  row `p`, class `c`, position `k` is the class logit plus the token logit. Everything is read on the extended reals,
  where a finite sum and the two additions are the exact ones; no law beyond the definitions is needed to compare the
  two programs, because both group the four terms the same way.
-/
import Idealize.ShloMosaic.PureOps.Ideal
import Idealize.ShloMosaic.Lib.ValueIdx

noncomputable section

namespace Cert.Logits

open Idealize.ShloMosaic Idealize.ShloMosaic.ValueIdx

/-- The class logit of batch row `p` and class `c`: the row of `x` against column `c` of `W`, plus the class bias. -/
def classLogit (x : (⟨2, ![1024, 128]⟩ : Shape).Idx → EReal) (W : (⟨2, ![128, 320]⟩ : Shape).Idx → EReal)
    (b : (⟨1, ![320]⟩ : Shape).Idx → EReal) (p : Fin 1024) (c : Fin 320) : EReal :=
  (∑ h : Fin 128, x (ix2 p h) * W (ix2 h c)) + b (ix1 c)

/-- The token logit of batch row `p` and position `k`: the row of `x` against row `k` of `U`, plus the token bias. -/
def tokenLogit (x : (⟨2, ![1024, 128]⟩ : Shape).Idx → EReal) (U : (⟨2, ![320, 128]⟩ : Shape).Idx → EReal)
    (d : (⟨1, ![320]⟩ : Shape).Idx → EReal) (p : Fin 1024) (k : Fin 320) : EReal :=
  (∑ h : Fin 128, x (ix2 p h) * U (ix2 k h)) + d (ix1 k)

/-- The table: entry (p, c, k) is the class logit of (p, c) plus the token logit of (p, k). -/
def table (x : (⟨2, ![1024, 128]⟩ : Shape).Idx → EReal) (W : (⟨2, ![128, 320]⟩ : Shape).Idx → EReal)
    (b : (⟨1, ![320]⟩ : Shape).Idx → EReal) (U : (⟨2, ![320, 128]⟩ : Shape).Idx → EReal)
    (d : (⟨1, ![320]⟩ : Shape).Idx → EReal) : (⟨3, ![1024, 320, 320]⟩ : Shape).Idx → EReal :=
  fun i => classLogit x W b (i 0) (i 1) + tokenLogit x U d (i 0) (i 2)

theorem table_apply (x : (⟨2, ![1024, 128]⟩ : Shape).Idx → EReal) (W : (⟨2, ![128, 320]⟩ : Shape).Idx → EReal)
    (b : (⟨1, ![320]⟩ : Shape).Idx → EReal) (U : (⟨2, ![320, 128]⟩ : Shape).Idx → EReal)
    (d : (⟨1, ![320]⟩ : Shape).Idx → EReal) (p : Fin 1024) (c k : Fin 320) :
    table x W b U d (ix3 p c k) = classLogit x W b p c + tokenLogit x U d p k := rfl

end Cert.Logits

end
-- ==== Proof.KernelTable.lean ====
/-
  The kernel's rank-3 array is the logit table.

  Before the region the host lays the small parameters out: the class weights transposed (row r of the new array is
  column r of the weights), the class bias as a column, the token bias as a row. Grid step t holds classes 8t, …, 8t+7:
  it sees the whole activations, rows 8t … 8t+7 of the transposed class weights and of the bias column, the whole
  token weights and the bias row, and writes block (·, t, ·) of the output — batch rows all, class rows 8t … 8t+7,
  positions all. So the block of step t, entry (p, g, k), is the class logit of (p, 8t+g) plus the token logit of
  (p, k): block t of the table. The forty blocks cover the class axis (class c lies in step c / 8), so after the run the
  array is the table.
-/
import proofs.«152181_j18133351924188_2_alg».proof.Proof.StepBlock
import proofs.«152181_j18133351924188_2_alg».proof.Proof.Logits
import Idealize.ShloMosaic.Lib.StableHlo.Run

set_option maxRecDepth 16384

noncomputable section

namespace Cert.Logits.Kernel

open Idealize.ShloMosaic Idealize.ShloMosaic.TcCoe Idealize.ShloMosaic.ValueIdx Idealize.SL.Sem
open Cert.KernelIdeal Cert.KernelIdeal.Gen Cert.Logits Cert.Logits.Step

variable (m : (ℓ : Loc nD τ sig) → Buf (Elt Ideal) ℓ)

/-! ## The host's layouts before the region, read at an index -/

/-- Row `r` of the transposed class weights is column `r` of the class weights. -/
theorem classWeights_at (c : Dev nD) (r : Fin 320) (h : Fin 128) :
    V m c main_v0 (ix2 r h) = m ((c : Thread nD τ).loc main_arg1) (ix2 h r) := by
  have e : (V m c main_v0 : S320x128.Idx → EReal)
      = transpose S320x128 [1, 0] (m ((c : Thread nD τ).loc main_arg1)) transposes_S128x320_S320x128_1_0 := by
    show StableHlo.after hostOps0 (fun b => m (c, b)) (Proc.devRef .tc main_v0) = _
    after_results <;> rfl
  rw [e]
  exact transpose_apply [1, 0] _ transposes_S128x320_S320x128_1_0 (ix2 r h) (ix2 h r) (fun b => match b with
    | ⟨0, _⟩ => rfl
    | ⟨1, _⟩ => rfl)

/-- Entry `r` of the class bias column is the class bias of `r`. -/
theorem classBias_at (c : Dev nD) (r : Fin 320) :
    V m c main_v1 (ix2 r 0) = m ((c : Thread nD τ).loc main_arg2) (ix1 r) := by
  have e : (V m c main_v1 : S320x1.Idx → EReal)
      = shapeCast S320x1 (m ((c : Thread nD τ).loc main_arg2)) shapeCasts_S320_S320x1 := by
    show StableHlo.after hostOps0 (fun b => m (c, b)) (Proc.devRef .tc main_v1) = _
    after_results <;> rfl
  rw [e]
  exact shapeCast_apply _ shapeCasts_S320_S320x1 (ix2 r 0) (ix1 r) (by
    rewrite [Shape.rowMajor_val_one, Shape.rowMajor_val_two]; show r.val = r.val * 1 + 0; omega)

/-- Entry `k` of the token bias row is the token bias of `k`. -/
theorem tokenBias_at (c : Dev nD) (k : Fin 320) :
    V m c main_v2 (ix2 0 k) = m ((c : Thread nD τ).loc main_arg4) (ix1 k) := by
  have e : (V m c main_v2 : S1x320.Idx → EReal)
      = shapeCast S1x320 (m ((c : Thread nD τ).loc main_arg4)) shapeCasts_S320_S1x320 := by
    show StableHlo.after hostOps0 (fun b => m (c, b)) (Proc.devRef .tc main_v2) = _
    after_results <;> rfl
  rw [e]
  exact shapeCast_apply _ shapeCasts_S320_S1x320 (ix2 0 k) (ix1 k) (by
    rewrite [Shape.rowMajor_val_one, Shape.rowMajor_val_two]; show k.val = 0 * 320 + k.val; omega)

/-! ## Where each window's block sits at grid step `t` -/

/-- The printed index maps over the forty steps: the activations, the token weights and the token bias row are
    whole at every step; the class weights' rows, the class bias column and the output's class axis move with the step. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

theorem step_lt (t : Fin cfg0.N) : t.val < 40 := lt_of_lt_of_eq t.isLt N_0

/-- The class that row `g` of step `t` holds. -/
def classOf (t : Fin cfg0.N) (g : Fin 8) : Fin 320 := ⟨t.val * 8 + g.val, by have := step_lt t; omega⟩

/-- The activations' block is the activations. -/
theorem acts_block (c : Dev nD) (t : Fin cfg0.N) (p : Fin 1024) (h : Fin 128) :
    iblk m c 0 t (ix2 p h) = m ((c : Thread nD τ).loc main_arg0) (ix2 p h) := by
  obtain ⟨e0, e1, -⟩ := index_facts t
  show V m c main_arg0 (((cfg0.win 0).blk t).view.emb (ix2 p h)) = _
  rw [V_main_arg0]
  refine congrArg (m ((c : Thread nD τ).loc main_arg0)) (funext fun a => Fin.ext ?_)
  match a with
  | ⟨0, _⟩ => show win0_0.index t (0 : Fin 2) * 1024 + 1 * p.val = p.val; omega
  | ⟨1, _⟩ => show win0_0.index t (1 : Fin 2) * 128 + 1 * h.val = h.val; omega

/-- Row `g` of the step's class-weight block is the column of the class weights for the class that row holds. -/
theorem classWeights_block (c : Dev nD) (t : Fin cfg0.N) (g : Fin 8) (h : Fin 128) :
    iblk m c 1 t (ix2 g h) = m ((c : Thread nD τ).loc main_arg1) (ix2 h (classOf t g)) := by
  obtain ⟨-, -, e0, e1, -⟩ := index_facts t
  show V m c main_v0 (((cfg0.win 1).blk t).view.emb (ix2 g h)) = _
  refine (congrArg (V m c main_v0) (funext fun a => Fin.ext ?_ : ((cfg0.win 1).blk t).view.emb (ix2 g h) = ix2 (classOf t g) h)).trans
    (classWeights_at m c (classOf t g) h)
  match a with
  | ⟨0, _⟩ => show win0_1.index t (0 : Fin 2) * 8 + 1 * g.val = t.val * 8 + g.val; omega
  | ⟨1, _⟩ => show win0_1.index t (1 : Fin 2) * 128 + 1 * h.val = h.val; omega

/-- Row `g` of the step's class-bias block is the bias of the class that row holds. -/
theorem classBias_block (c : Dev nD) (t : Fin cfg0.N) (g : Fin 8) :
    iblk m c 2 t (ix2 g 0) = m ((c : Thread nD τ).loc main_arg2) (ix1 (classOf t g)) := by
  obtain ⟨-, -, -, -, e0, e1, -⟩ := index_facts t
  show V m c main_v1 (((cfg0.win 2).blk t).view.emb (ix2 g 0)) = _
  refine (congrArg (V m c main_v1) (funext fun a => Fin.ext ?_ : ((cfg0.win 2).blk t).view.emb (ix2 g 0) = ix2 (classOf t g) 0)).trans
    (classBias_at m c (classOf t g))
  match a with
  | ⟨0, _⟩ => show win0_2.index t (0 : Fin 2) * 8 + 1 * g.val = t.val * 8 + g.val; omega
  | ⟨1, _⟩ => show win0_2.index t (1 : Fin 2) * 1 + 1 * 0 = 0; omega

/-- The token weights' block is the token weights. -/
theorem tokenWeights_block (c : Dev nD) (t : Fin cfg0.N) (k : Fin 320) (h : Fin 128) :
    iblk m c 3 t (ix2 k h) = m ((c : Thread nD τ).loc main_arg3) (ix2 k h) := by
  obtain ⟨-, -, -, -, -, -, e0, e1, -⟩ := index_facts t
  show V m c main_arg3 (((cfg0.win 3).blk t).view.emb (ix2 k h)) = _
  rw [V_main_arg3]
  refine congrArg (m ((c : Thread nD τ).loc main_arg3)) (funext fun a => Fin.ext ?_)
  match a with
  | ⟨0, _⟩ => show win0_3.index t (0 : Fin 2) * 320 + 1 * k.val = k.val; omega
  | ⟨1, _⟩ => show win0_3.index t (1 : Fin 2) * 128 + 1 * h.val = h.val; omega

/-- The token bias row's block is the token bias. -/
theorem tokenBias_block (c : Dev nD) (t : Fin cfg0.N) (k : Fin 320) :
    iblk m c 4 t (ix2 0 k) = m ((c : Thread nD τ).loc main_arg4) (ix1 k) := by
  obtain ⟨-, -, -, -, -, -, -, -, e0, e1, -⟩ := index_facts t
  show V m c main_v2 (((cfg0.win 4).blk t).view.emb (ix2 0 k)) = _
  refine (congrArg (V m c main_v2) (funext fun a => Fin.ext ?_ : ((cfg0.win 4).blk t).view.emb (ix2 0 k) = ix2 0 k)).trans
    (tokenBias_at m c k)
  match a with
  | ⟨0, _⟩ => show win0_4.index t (0 : Fin 2) * 1 + 1 * 0 = 0; omega
  | ⟨1, _⟩ => show win0_4.index t (1 : Fin 2) * 320 + 1 * k.val = k.val; omega

/-! ## A step's block is a block of the table -/

/-- Over plain arrays: when a step's five inputs are the argument arrays read where the step sits — `cls` the class its
    row `g` holds — entry (p, g, k) of the step's block is entry (p, cls, k) of the table. -/
theorem tile_eq_table (X0 : Vec Ideal S1024x128 .f32) (X1 : Vec Ideal S8x128 .f32) (X2 : Vec Ideal S8x1 .f32)
    (X3 : Vec Ideal S320x128 .f32) (X4 : Vec Ideal S1x320 .f32)
    (x : (⟨2, ![1024, 128]⟩ : Shape).Idx → EReal) (W : (⟨2, ![128, 320]⟩ : Shape).Idx → EReal)
    (b : (⟨1, ![320]⟩ : Shape).Idx → EReal) (U : (⟨2, ![320, 128]⟩ : Shape).Idx → EReal)
    (d : (⟨1, ![320]⟩ : Shape).Idx → EReal) (p : Fin 1024) (g : Fin 8) (k : Fin 320) (cls : Fin 320)
    (h0 : ∀ h : Fin 128, X0 (ix2 p h) = x (ix2 p h)) (h1 : ∀ h : Fin 128, X1 (ix2 g h) = W (ix2 h cls))
    (h2 : X2 (ix2 g 0) = b (ix1 cls)) (h3 : ∀ h : Fin 128, X3 (ix2 k h) = U (ix2 k h)) (h4 : X4 (ix2 0 k) = d (ix1 k)) :
    tile (k0_pay8 X0 X1 X2) (k0_pay9 X0 X3 X4) (ix3 p g k) = table x W b U d (ix3 p cls k) := by
  show k0_pay8 (F := Ideal) X0 X1 X2 (ix2 p g) + k0_pay9 (F := Ideal) X0 X3 X4 (ix2 p k)
    = classLogit x W b p cls + tokenLogit x U d p k
  rw [class_logits, token_logits]
  unfold classLogit tokenLogit
  simp only [h0, h1, h2, h3, h4]

/-- WHAT STEP `t` WRITES BACK is block `t` of the table of the argument arrays. -/
theorem flushed_eq_table (c : Dev nD) (t : Fin cfg0.N) :
    (dats m 0 c).flushed 5 t = ((cfg0.win 5).blk t).view.read (Elt Ideal)
      (table (m ((c : Thread nD τ).loc main_arg0)) (m ((c : Thread nD τ).loc main_arg1)) (m ((c : Thread nD τ).loc main_arg2))
        (m ((c : Thread nD τ).loc main_arg3)) (m ((c : Thread nD τ).loc main_arg4))) := by
  show (cfg0.win 5).cut (grid0.coords t) ((dats m 0 c).after 5 t) = _
  have hb := block_eq_tile (iblk m c 0 t) (iblk m c 1 t) (iblk m c 2 t) (iblk m c 3 t) (iblk m c 4 t)
  rw [after0_5, hb]
  obtain ⟨-, -, -, -, -, -, -, -, -, -, e0, e1, e2⟩ := index_facts t
  funext y
  obtain ⟨p, g, k, rfl⟩ : ∃ (p : Fin 1024) (g : Fin 8) (k : Fin 320), y = ix3 p g k := ⟨y 0, y 1, y 2, eq_ix3 y⟩
  show tile (k0_pay8 (iblk m c 0 t) (iblk m c 1 t) (iblk m c 2 t)) (k0_pay9 (iblk m c 0 t) (iblk m c 3 t) (iblk m c 4 t)) (ix3 p g k)
    = (table (m ((c : Thread nD τ).loc main_arg0)) (m ((c : Thread nD τ).loc main_arg1)) (m ((c : Thread nD τ).loc main_arg2))
        (m ((c : Thread nD τ).loc main_arg3)) (m ((c : Thread nD τ).loc main_arg4)))
        (((cfg0.win 5).blk t).view.emb (ix3 p g k))
  refine (tile_eq_table (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) p g k (classOf t g)
    (acts_block m c t p) (classWeights_block m c t g) (classBias_block m c t g) (tokenWeights_block m c t k)
    (tokenBias_block m c t k)).trans ?_
  refine congrArg (table (m ((c : Thread nD τ).loc main_arg0)) (m ((c : Thread nD τ).loc main_arg1)) (m ((c : Thread nD τ).loc main_arg2))
        (m ((c : Thread nD τ).loc main_arg3)) (m ((c : Thread nD τ).loc main_arg4)))
    (funext fun a => Fin.ext ?_)
  match a with
  | ⟨0, _⟩ => show p.val = win0_5.index t (0 : Fin 3) * 1024 + 1 * p.val; omega
  | ⟨1, _⟩ => show t.val * 8 + g.val = win0_5.index t (1 : Fin 3) * 8 + 1 * g.val; omega
  | ⟨2, _⟩ => show k.val = win0_5.index t (2 : Fin 3) * 320 + 1 * k.val; omega

/-! ## The forty blocks cover the array -/

/-- An index of the array is in step `t`'s block iff each coordinate is in the block's range on its axis. -/
theorem mem_block (t : Fin cfg0.N) (i : S1024x320x320.Idx) :
    i ∈ ((cfg0.win 5).blk t).view.set ↔ ∀ a : Fin 3, win0_5.index t a * S1024x8x320.size a ≤ (i a).val
      ∧ (i a).val < win0_5.index t a * S1024x8x320.size a + S1024x8x320.size a := by
  show i ∈ ((View.whole main_v3).slice (win0_5.rect t)).set ↔ _
  rw [View.set_slice_whole, Rect.mem_set_unit]
  exact Iff.rfl

/-- Every entry lies in the block of the step that holds its class: class `c` is in step `c / 8`. -/
theorem covered (i : S1024x320x320.Idx) :
    ∃ t : Fin cfg0.N, (cfg0.win 5).flush t = true ∧ i ∈ ((cfg0.win 5).blk t).view.set := by
  have h0 : (i 0).val < 1024 := (i 0).isLt
  have h1 : (i 1).val < 320 := (i 1).isLt
  have h2 : (i 2).val < 320 := (i 2).isLt
  have hN : (i 1).val / 8 < cfg0.N := lt_of_lt_of_eq (by omega : (i 1).val / 8 < 40) N_0.symm
  obtain ⟨-, -, -, -, -, -, -, -, -, -, e0, e1, e2⟩ := index_facts ⟨(i 1).val / 8, hN⟩
  have e1' : win0_5.index ⟨(i 1).val / 8, hN⟩ (1 : Fin 3) = (i 1).val / 8 := e1
  refine ⟨⟨(i 1).val / 8, hN⟩, flush0_5 _, ?_⟩
  rw [mem_block]
  intro a
  match a with
  | ⟨0, _⟩ =>
    show win0_5.index ⟨(i 1).val / 8, hN⟩ (0 : Fin 3) * 1024 ≤ (i 0).val
      ∧ (i 0).val < win0_5.index ⟨(i 1).val / 8, hN⟩ (0 : Fin 3) * 1024 + 1024
    omega
  | ⟨1, _⟩ =>
    show win0_5.index ⟨(i 1).val / 8, hN⟩ (1 : Fin 3) * 8 ≤ (i 1).val
      ∧ (i 1).val < win0_5.index ⟨(i 1).val / 8, hN⟩ (1 : Fin 3) * 8 + 8
    omega
  | ⟨2, _⟩ =>
    show win0_5.index ⟨(i 1).val / 8, hN⟩ (2 : Fin 3) * 320 ≤ (i 2).val
      ∧ (i 2).val < win0_5.index ⟨(i 1).val / 8, hN⟩ (2 : Fin 3) * 320 + 320
    omega

/-- THE ARRAY after the run is the table of the argument arrays. -/
theorem array_eq_table (c : Dev nD) :
    (dats m 0 c).arrAt 5 cfg0.N
      = (table (m ((c : Thread nD τ).loc main_arg0)) (m ((c : Thread nD τ).loc main_arg1)) (m ((c : Thread nD τ).loc main_arg2))
        (m ((c : Thread nD τ).loc main_arg3)) (m ((c : Thread nD τ).loc main_arg4))) :=
  (dats m 0 c).arrAt_eq_of_cover 5 _ (fun t _ => flushed_eq_table m c t) covered

end Cert.Logits.Kernel

end
-- ==== Proof.KernelRun.lean ====
/-
  The kernel's run, with its result named.

  After the region the host flattens the rank-3 array: entry (p, 320·c + k) of the result is entry (p, c, k) of the array.
  The array is the logit table, so the result is the table flattened — the flattening is kept as the one operation it
  is and never read at an index, because the reference ends with the same operation. The five arguments end as launched.
-/
import proofs.«152181_j18133351924188_2_alg».proof.Proof.KernelTable

set_option maxRecDepth 16384

noncomputable section

namespace Cert.Logits.Kernel

open Idealize.ShloMosaic Idealize.ShloMosaic.TcCoe Idealize.ShloMosaic.ValueIdx Idealize.SL.Sem
open Cert.KernelIdeal Cert.KernelIdeal.Gen Cert.Logits Cert.Logits.Step

variable (m : (ℓ : Loc nD τ sig) → Buf (Elt Ideal) ℓ) (ρ : Dev nD → PrngReg)

/-- What the host lines after the region leave in the result buffer: the table, flattened. -/
theorem result_eq (c : Dev nD) :
    Pipeline.afterTail₀ cfgs (dats m) 0 (V0 m) [hostOps1] c main_v4
      = shapeCast S1024x102400 (table (m ((c : Thread nD τ).loc main_arg0)) (m ((c : Thread nD τ).loc main_arg1)) (m ((c : Thread nD τ).loc main_arg2))
        (m ((c : Thread nD τ).loc main_arg3)) (m ((c : Thread nD τ).loc main_arg4))) shapeCasts_S1024x320x320_S1024x102400 := by
  unfold Pipeline.afterTail₀
  show StableHlo.after hostOps1 _ (Proc.devRef .tc main_v4) = _
  after_results
  exact congrArg (fun a => shapeCast S1024x102400 a shapeCasts_S1024x320x320_S1024x102400)
    ((Pipeline.withArrays_arr spec0 launch0.win.arr_inj c (V0 m c) (fun w => (dats m 0 c).arrAt w cfg0.N) 5).trans
      (array_eq_table m c))

/-- THE KERNEL'S RUN: every weakly fair execution terminates with the result buffer at the flattened table of the
    argument arrays, and the arguments as launched. -/
theorem run : θ_run defs (onTc (τ := τ) (main (F := Ideal))) ⟨m, fun _ => 0, ρ⟩ (fun r => ∀ c : Dev nD,
      r.2.mem ((c : Thread nD τ).loc main_v4)
        = shapeCast S1024x102400 (table (m ((c : Thread nD τ).loc main_arg0)) (m ((c : Thread nD τ).loc main_arg1)) (m ((c : Thread nD τ).loc main_arg2))
        (m ((c : Thread nD τ).loc main_arg3)) (m ((c : Thread nD τ).loc main_arg4))) shapeCasts_S1024x320x320_S1024x102400
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.Logits.Kernel

end
-- ==== Proof.LibEdgeGather.lean ====
/-
  Two gathers along the leading axis, read at an index.

  `x[ids]` of a matrix `x : [N, D]` at an integer vector `ids : [E]` lowers to a `stablehlo.gather` over the
  start indices as `[E, 1]` (offset axis 1, the operand's axis 0 collapsed, slice sizes `[1, D]`): result entry
  `(e, c)` is the operand's at row `ids[e]` — read as a signed integer and clamped into `[0, N − 1]`, as the
  gather clamps every start index — and column `c`.

  `x[ids, 0]` of a one-column matrix `x : [N, 1]` lowers to a gather over start indices `[E, 2]` (the pair
  (row, column) per edge; both operand axes collapsed, slice sizes `[1, 1]`): result entry `e` is the operand's at
  the clamped row and — the column axis having extent one — column `0`, whatever the second index word holds.
-/
import Idealize.ShloMosaic.PureOps.ShapeOps
import Idealize.ShloMosaic.Lib.ValueIdx

noncomputable section

namespace Idealize.ShloMosaic.EdgeGather

open Idealize.ShloMosaic Idealize.ShloMosaic.ValueIdx

variable {α : Type}

/-- The row a start-index word names: read signed, clamped into `[0, N − 1]`. -/
def clampRow (N : Nat) (hN : 0 < N) {w : Nat} (b : BitVec w) : Fin N := ⟨min b.toInt.toNat (N - 1), by omega⟩

/-- Dimension numbers of the row gather: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Dimension numbers of the gather of a one-column matrix at (row, column) pairs: operand `[N, 1]`, start
    indices `[E, 2]`, result `[E]`. -/
abbrev pairDims (N E : Nat)
    (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- THE ROW GATHER AT `(e, c)`: the operand at the clamped row `ids[e]` and column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowDims N D E wf) x idx (ix2 e c) = x (ix2 (clampRow N hN (idx (ix2 e 0))) c) := by
  unfold Host.gather
  congr 1
  funext a
  match a with
  | ⟨0, _⟩ =>
    -- the row axis: collapsed, named by the start index map; the clamped start alone
    refine Fin.ext ?_
    show (rowDims N D E wf).start (ix2 e c) idx 0 + (rowDims N D E wf).batchCoord (ix2 e c) 0
      + (rowDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e c) ⟨List.idxOf (0 : Fin 2) (rowDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: the one offset axis, not named by the start index map; the offset coordinate alone
    refine Fin.ext ?_
    show (rowDims N D E wf).start (ix2 e c) idx 1 + (rowDims N D E wf).batchCoord (ix2 e c) 1
      + (rowDims N D E wf).offCoord (ix2 e c) 1 = _
    rw [GatherDims.batchCoord_eq_zero _ _ _ List.not_mem_nil]
    have hst : (rowDims N D E wf).start (ix2 e c) idx 1 = 0 := by
      unfold GatherDims.start
      rw [dif_neg (show (1 : Fin 2) ∉ (rowDims N D E wf).startIndexMap from
        (by decide : (1 : Fin 2) ∉ ([0] : List (Fin 2))))]
    have hk : (1 : Fin 2) ∈ (rowDims N D E wf).sKept :=
      (GatherDims.mem_sKept _ _).mpr ⟨(by decide : (1 : Fin 2) ∉ ([0] : List (Fin 2))), List.not_mem_nil⟩
    have hoff : (rowDims N D E wf).offCoord (ix2 e c) 1 = c.val := by
      unfold GatherDims.offCoord
      rw [dif_pos hk]
      rfl
    rw [hst, hoff]
    simp

/-- THE PAIR GATHER AT `e`: the operand at the clamped row `idx[e, 0]` and column `0`. -/
theorem gather_pair_apply {N E w : Nat} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (pairDims N E wf) x idx (ix1 e) = x (ix2 (clampRow N hN (idx (ix2 e 0))) 0) := by
  unfold Host.gather
  congr 1
  funext a
  match a with
  | ⟨0, _⟩ =>
    -- the row axis: collapsed, first in the start index map; the clamped start alone
    refine Fin.ext ?_
    show (pairDims N E wf).start (ix1 e) idx 0 + (pairDims N E wf).batchCoord (ix1 e) 0
      + (pairDims N E wf).offCoord (ix1 e) 0 = _
    rw [GatherDims.batchCoord_eq_zero _ _ _ List.not_mem_nil,
      GatherDims.offCoord_eq_zero _ _ _ (fun h => ((GatherDims.mem_sKept _ _).mp h).1
        (by decide : (0 : Fin 2) ∈ ([0, 1] : List (Fin 2))))]
    simp only [Nat.add_zero]
    unfold GatherDims.start
    rw [dif_pos (show (0 : Fin 2) ∈ (pairDims N E wf).startIndexMap from
      (by decide : (0 : Fin 2) ∈ ([0, 1] : List (Fin 2))))]
    have hsi : (pairDims N E wf).siIdx (ix1 e) ⟨List.idxOf (0 : Fin 2) (pairDims N E wf).startIndexMap,
        List.idxOf_lt_length_iff.2 (by decide : (0 : Fin 2) ∈ ([0, 1] : List (Fin 2)))⟩ = ix2 e 0 := by
      funext b; refine Fin.ext ?_
      match b with
      | ⟨0, _⟩ => rfl
      | ⟨1, _⟩ => rfl
    rw [hsi]
    rfl
  | ⟨1, _⟩ =>
    -- the column axis: collapsed, of extent one and slice size one, so its start is clamped into [0, 1 − 1]
    refine Fin.ext ?_
    show (pairDims N E wf).start (ix1 e) idx 1 + (pairDims N E wf).batchCoord (ix1 e) 1
      + (pairDims N E wf).offCoord (ix1 e) 1 = _
    rw [GatherDims.batchCoord_eq_zero _ _ _ List.not_mem_nil,
      GatherDims.offCoord_eq_zero _ _ _ (fun h => ((GatherDims.mem_sKept _ _).mp h).1
        (by decide : (1 : Fin 2) ∈ ([0, 1] : List (Fin 2))))]
    have hst : (pairDims N E wf).start (ix1 e) idx 1 = 0 :=
      Nat.le_zero.mp ((pairDims N E wf).start_le (ix1 e) idx 1)
    rw [hst]
    rfl

end Idealize.ShloMosaic.EdgeGather

end
-- ==== Proof.LibVecGather.lean ====
/-
  A gather of single entries of a vector, read at an index.

  `v[ids]` for a vector `v` of extent `N` and one index per edge lowers to a `stablehlo.gather` with the start
  indices as an `[E, 1]` array (index vector on axis 1), the operand's one axis collapsed and named by the start index
  map, slice size one, no offset axis. Entry `e` of the result is the operand at the row the index word `ids[e]` names:
  read as a signed integer and clamped into `[0, N − 1]` — the same clamp as the row gather of a matrix.
-/
import proofs.«152181_j18133351924188_2_alg».proof.Proof.LibEdgeGather

noncomputable section

namespace Idealize.ShloMosaic.VecGather

open Idealize.ShloMosaic Idealize.ShloMosaic.ValueIdx Idealize.ShloMosaic.EdgeGather

variable {α : Type}

/-- Dimension numbers of the entry gather: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER AT `e`: the operand at the clamped row `ids[e]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e 0)))) := by
  unfold Host.gather
  congr 1
  funext a
  -- the operand has one axis: collapsed, named by the start index map; the clamped start alone
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Idealize.ShloMosaic.VecGather

end
-- ==== Proof.RefTable.lean ====
/-
  The reference computes the logit table.

  Read one operation at a time, the reference forms the class logits as the activations against the class weights
  plus the class bias, the token logits as the activations against the TRANSPOSE of the token weights plus the token
  bias looked up at the positions 0, 1, …, 319, and adds the two with the class logit spread along the position axis and
  the token logit along the class axis. The lookup is the identity: each position word is nonnegative, so the
  sign test keeps it, and read as a signed number and clamped into [0, 319] it names its own entry. Entry (p, c, k)
  of the rank-3 stage is therefore the class logit of (p, c) plus the token logit of (p, k).
-/
import proofs.«152181_j18133351924188_2_alg».proof.Proof.Gen.ReferenceIdeal.Read
import proofs.«152181_j18133351924188_2_alg».proof.Proof.Logits
import proofs.«152181_j18133351924188_2_alg».proof.Proof.LibVecGather

noncomputable section

namespace Cert.Logits.Ref

open Idealize.ShloMosaic Idealize.ShloMosaic.ValueIdx Idealize.ShloMosaic.EdgeGather Idealize.ShloMosaic.VecGather
open Cert.ReferenceIdeal Cert.ReferenceIdeal.Gen Cert.ReferenceIdeal.Read

/-- A position below 320 is not negative as a signed 32-bit word, so the wrap-around test keeps it. -/
theorem position_kept : ∀ e : Fin 320,
    Scalar.select (IntOp.cmpi .slt (BitVec.ofNat 32 e.val) 0#32) (IntOp.addi (BitVec.ofNat 32 e.val) 320#32) (BitVec.ofNat 32 e.val)
      = BitVec.ofNat 32 e.val := by decide +kernel

/-- Read signed and clamped into [0, 319], the word of a position below 320 is that position. -/
theorem position_clamped : ∀ e : Fin 320, clampRow 320 (by decide) (BitVec.ofNat 32 e.val) = e := by decide +kernel

/-- The start index the lookup is given for position `e` is the word `e`. -/
theorem start_word (e : Fin 320) : val_main_v12 (F := Ideal) (ix2 e 0) = BitVec.ofNat 32 e.val := by
  rw [val_main_v12_apply, val_main_v11_apply, val_main_v8_apply, val_main_v10_apply, val_main_v0_apply, val_main_v7_apply,
    val_main_c_apply, val_main_v9_apply, val_main_c_0_apply]
  exact position_kept e

/-- The token bias looked up at the positions 0, …, 319 is the token bias. -/
theorem lookup_eq (d : (⟨1, ![320]⟩ : Shape).Idx → EReal) (j : (⟨1, ![320]⟩ : Shape).Idx) :
    val_main_v13 (F := Ideal) d j = d j := by
  obtain ⟨e, rfl⟩ : ∃ e : Fin 320, j = ix1 e := ⟨j 0, eq_ix1 j⟩
  unfold val_main_v13
  show Host.gather (vecDims 320 320 gather_S320_S320x1_S320_n_0_n_n_0_1_1_wf) d (val_main_v12 (F := Ideal)) (ix1 e) = _
  rw [gather_vec_apply (by decide), start_word, position_clamped]

/-- THE REFERENCE'S RANK-3 STAGE IS THE TABLE. -/
theorem stage_eq_table (x : (⟨2, ![1024, 128]⟩ : Shape).Idx → EReal) (W : (⟨2, ![128, 320]⟩ : Shape).Idx → EReal)
    (b : (⟨1, ![320]⟩ : Shape).Idx → EReal) (U : (⟨2, ![320, 128]⟩ : Shape).Idx → EReal)
    (d : (⟨1, ![320]⟩ : Shape).Idx → EReal) :
    val_main_v21 (F := Ideal) x W b U d = table x W b U d := by
  funext i
  obtain ⟨p, c, k, rfl⟩ : ∃ (p : Fin 1024) (c k : Fin 320), i = ix3 p c k := ⟨i 0, i 1, i 2, eq_ix3 i⟩
  rw [val_main_v21_apply, val_main_v19_apply, val_main_v17_apply, val_main_v4_apply, val_main_v1_apply, val_main_v3_apply,
    val_main_v2_apply, val_main_v20_apply, val_main_v18_apply, val_main_v16_apply, val_main_v6_apply, val_main_v15_apply,
    val_main_v14_apply, lookup_eq]
  have hx1 : ∀ h : Fin 128, lidx_main_v1 (idx_main_v17 (idx_main_v19 (ix3 p c k))) h = ix2 p h := fun h =>
    funext fun a => Fin.ext (by match a with | ⟨0, _⟩ => rfl | ⟨1, _⟩ => rfl)
  have hW : ∀ h : Fin 128, ridx_main_v1 (idx_main_v17 (idx_main_v19 (ix3 p c k))) h = ix2 h c := fun h =>
    funext fun a => Fin.ext (by match a with | ⟨0, _⟩ => rfl | ⟨1, _⟩ => rfl)
  have hb : idx_main_v2 (idx_main_v3 (idx_main_v17 (idx_main_v19 (ix3 p c k)))) = ix1 c :=
    funext fun a => Fin.ext (by match a with | ⟨0, _⟩ => rfl)
  have hx2 : ∀ h : Fin 128, lidx_main_v6 (idx_main_v18 (idx_main_v20 (ix3 p c k))) h = ix2 p h := fun h =>
    funext fun a => Fin.ext (by match a with | ⟨0, _⟩ => rfl | ⟨1, _⟩ => rfl)
  have hU : ∀ h : Fin 128, idx_main_v5 (ridx_main_v6 (idx_main_v18 (idx_main_v20 (ix3 p c k))) h) = ix2 k h := fun h =>
    funext fun a => Fin.ext (by match a with | ⟨0, _⟩ => rfl | ⟨1, _⟩ => rfl)
  have hd : idx_main_v14 (idx_main_v15 (idx_main_v18 (idx_main_v20 (ix3 p c k)))) = ix1 k :=
    funext fun a => Fin.ext (by match a with | ⟨0, _⟩ => rfl)
  simp only [val_main_v5_apply, hx1, hW, hb, hx2, hU, hd, Ideal.addf_def]
  rfl

end Cert.Logits.Ref

end
-- ==== Proof.lean ====
/-
  Two programs for the logits of a two-level softmax, equal on the extended reals.

  For 1024 batch rows of 128 features, 320 classes and 320 positions inside a class, the logit of row p at token
  320·c + k is the CLASS logit `Σ_h x[p,h]·W[h,c] + b[c]` plus the TOKEN logit `Σ_h x[p,h]·U[k,h] + d[k]`
  (Proof/Logits.lean states this table once, as a function of the five argument arrays).

  The reference forms both logit matrices whole, looks the token bias up at the positions 0, …, 319 (the identity
  lookup), adds them along a class axis and a position axis, and flattens (Proof/RefTable.lean). The kernel walks the
  class axis eight classes at a time: each of its forty steps multiplies the activations with the step's eight rows of
  the transposed class weights and with the whole token weights, and writes the eight class slabs of its block
  (Proof/StepBlock.lean); the blocks tile the rank-3 array (Proof/KernelTable.lean), which the host then flattens
  (Proof/KernelRun.lean). Both programs add the same four terms in the same grouping, so no law of the extended reals
  beyond the definitions is used and the finiteness of the inputs is never opened; the shorter float format the kernel
  rounds its operands to is the identity on the extended reals; the final flattening is the same operation in both
  programs and is never read at an index.

  The three frames are the generated ones (the reference's is its generated run with the result dropped); the kernel read
  on the extended reals is its own text, no operation rewritten, so there is nothing to preserve.
-/
import proofs.«152181_j18133351924188_2_alg».proof.Defs
import proofs.«152181_j18133351924188_2_alg».proof.Proof.Gen.Kernel
import proofs.«152181_j18133351924188_2_alg».proof.Proof.Gen.Kernel.Frame
import proofs.«152181_j18133351924188_2_alg».proof.Proof.Gen.KernelIdeal
import proofs.«152181_j18133351924188_2_alg».proof.Proof.Gen.KernelIdeal.Frame
import proofs.«152181_j18133351924188_2_alg».proof.Proof.Gen.ReferenceIdeal
import proofs.«152181_j18133351924188_2_alg».proof.Proof.Gen.Pre_finite_inputs
import proofs.«152181_j18133351924188_2_alg».proof.Proof.Gen.ReferenceIdeal.Run
import proofs.«152181_j18133351924188_2_alg».proof.Proof.Gen.ReferenceIdeal.Read
import proofs.«152181_j18133351924188_2_alg».proof.Proof.KernelRun
import proofs.«152181_j18133351924188_2_alg».proof.Proof.RefTable
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- Both programs end with the flattened logit table of the argument arrays. -/
theorem algebraic : Cert.algebraic_KernelIdeal_ReferenceIdeal := by
  intro m ρ m' ρ' _ hagree
  refine ⟨fun c => shapeCast Cert.KernelIdeal.S1024x102400
      (Cert.Logits.table (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      Cert.KernelIdeal.Gen.shapeCasts_S1024x320x320_S1024x102400, Cert.Logits.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq]
  unfold Cert.ReferenceIdeal.Read.val_main_v22
  rw [Cert.Logits.Ref.stage_eq_table, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
